-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x1024x512 : Shape := ⟨4, ![16, 8, 1024, 512]⟩
abbrev S16x512 : Shape := ⟨2, ![16, 512]⟩
abbrev S13x4 : Shape := ⟨2, ![13, 4]⟩
abbrev S_ : Shape := ⟨0, ![]⟩

class Facts : Prop where
  bcast_S_S16x8x1024x512 : S_.BroadcastsInDim S16x8x1024x512 (![] : Fin 0 → Fin S16x8x1024x512.rank)
  reducesTo_S16x8x1024x512_S_d0_1_2_3 : S16x8x1024x512.ReducesTo [0, 1, 2, 3] S_
  h_S_ : 0 < S_.numel
  bcast_S_S13x4 : S_.BroadcastsInDim S13x4 (![] : Fin 0 → Fin S13x4.rank)
  reducesTo_S13x4_S_d0_1 : S13x4.ReducesTo [0, 1] S_

variable [Facts]

def fn {F : FTy → Type} [FloatOps F] (main_arg0 : FVec F S16x8x1024x512 .f32) (main_arg1 : IVec S16x512 32) (main_arg2 : FVec F S13x4 .f32) : IVec S_ 1 :=
  let main_v0 : FVec F S16x8x1024x512 .f32 := Host.absf main_arg0
  let main_cst : FVec F S_ .f32 := constant S_ .f32 0x7F800000#32
  let main_v1 : FVec F S16x8x1024x512 .f32 := broadcastInDim S16x8x1024x512 ![] bcast_S_S16x8x1024x512 main_cst
  let main_v2 : IVec S16x8x1024x512 1 := cmpf .olt main_v0 main_v1
  let main_c : IVec S_ 1 := constantI S_ 1 1#1
  let main_v3 : IVec S_ 1 := (fun x v => Host.reduce IntOp.andi x v reducesTo_S16x8x1024x512_S_d0_1_2_3 h_S_) main_v2 main_c
  let main_v4 : FVec F S13x4 .f32 := Host.absf main_arg2
  let main_cst_0 : FVec F S_ .f32 := constant S_ .f32 0x7F800000#32
  let main_v5 : FVec F S13x4 .f32 := broadcastInDim S13x4 ![] bcast_S_S13x4 main_cst_0
  let main_v6 : IVec S13x4 1 := cmpf .olt main_v4 main_v5
  let main_c_1 : IVec S_ 1 := constantI S_ 1 1#1
  let main_v7 : IVec S_ 1 := (fun x v => Host.reduce IntOp.andi x v reducesTo_S13x4_S_d0_1 h_S_) main_v6 main_c_1
  let main_v8 : IVec S_ 1 := andi main_v3 main_v7
  main_v8
-- ==== Kernel.lean ====
abbrev S16x8x1024x512 : Shape := ⟨4, ![16, 8, 1024, 512]⟩
abbrev S16x512 : Shape := ⟨2, ![16, 512]⟩
abbrev S13x4 : Shape := ⟨2, ![13, 4]⟩
abbrev S_ : Shape := ⟨0, ![]⟩
abbrev S16x512x1 : Shape := ⟨3, ![16, 512, 1]⟩
abbrev S16x512x4 : Shape := ⟨3, ![16, 512, 4]⟩
abbrev S16x1x1x512 : Shape := ⟨4, ![16, 1, 1, 512]⟩
abbrev S1x8x256x512 : Shape := ⟨4, ![1, 8, 256, 512]⟩
abbrev S1x1x1x512 : Shape := ⟨4, ![1, 1, 1, 512]⟩

abbrev nBuf : Space → Nat
  | .hbm => 25
  | .vmem => 12
  | .smem => 0
  | _ => 0

abbrev bufTy : (tb : Table) → Fin (tcTables nBuf tb) → BufTy
  | .hbm, ⟨0, _⟩ => ⟨S16x8x1024x512, .f32⟩
  | .hbm, ⟨1, _⟩ => ⟨S16x512, .i32⟩
  | .hbm, ⟨2, _⟩ => ⟨S13x4, .f32⟩
  | .hbm, ⟨3, _⟩ => ⟨S_, .i32⟩
  | .hbm, ⟨4, _⟩ => ⟨S16x512, .i32⟩
  | .hbm, ⟨5, _⟩ => ⟨S16x512, .i1⟩
  | .hbm, ⟨6, _⟩ => ⟨S_, .i32⟩
  | .hbm, ⟨7, _⟩ => ⟨S16x512, .i32⟩
  | .hbm, ⟨8, _⟩ => ⟨S16x512, .i32⟩
  | .hbm, ⟨9, _⟩ => ⟨S16x512, .i32⟩
  | .hbm, ⟨10, _⟩ => ⟨S16x512x1, .i32⟩
  | .hbm, ⟨11, _⟩ => ⟨S16x512x4, .f32⟩
  | .hbm, ⟨12, _⟩ => ⟨S16x512x1, .f32⟩
  | .hbm, ⟨13, _⟩ => ⟨S16x512, .f32⟩
  | .hbm, ⟨14, _⟩ => ⟨S16x1x1x512, .f32⟩
  | .hbm, ⟨15, _⟩ => ⟨S16x512x1, .f32⟩
  | .hbm, ⟨16, _⟩ => ⟨S16x512, .f32⟩
  | .hbm, ⟨17, _⟩ => ⟨S16x1x1x512, .f32⟩
  | .hbm, ⟨18, _⟩ => ⟨S16x512x1, .f32⟩
  | .hbm, ⟨19, _⟩ => ⟨S16x512, .f32⟩
  | .hbm, ⟨20, _⟩ => ⟨S16x1x1x512, .f32⟩
  | .hbm, ⟨21, _⟩ => ⟨S16x512x1, .f32⟩
  | .hbm, ⟨22, _⟩ => ⟨S16x512, .f32⟩
  | .hbm, ⟨23, _⟩ => ⟨S16x1x1x512, .f32⟩
  | .hbm, ⟨24, _⟩ => ⟨S16x8x1024x512, .f32⟩
  | .local _ .vmem, ⟨0, _⟩ => ⟨S1x8x256x512, .f32⟩
  | .local _ .vmem, ⟨1, _⟩ => ⟨S1x8x256x512, .f32⟩
  | .local _ .vmem, ⟨2, _⟩ => ⟨S1x1x1x512, .f32⟩
  | .local _ .vmem, ⟨3, _⟩ => ⟨S1x1x1x512, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S1x8x256x512, .f32⟩
  | .local _ .vmem, ⟨11, _⟩ => ⟨S1x8x256x512, .f32⟩
  | _, _ => ⟨S16x8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  slices_S16x512x4_S16x512x1_0_0_0 : S16x512x4.Slices ![0, 0, 0] S16x512x1
  shapeCasts_S16x512x1_S16x512 : S16x512x1.ShapeCasts S16x512
  shapeCasts_S16x512_S16x1x1x512 : S16x512.ShapeCasts S16x1x1x512
  slices_S16x512x4_S16x512x1_0_0_1 : S16x512x4.Slices ![0, 0, 1] S16x512x1
  slices_S16x512x4_S16x512x1_0_0_2 : S16x512x4.Slices ![0, 0, 2] S16x512x1
  slices_S16x512x4_S16x512x1_0_0_3 : S16x512x4.Slices ![0, 0, 3] S16x512x1
  inb_S1x8x256x512_S1x8x256x512_0_0_0_0 : ∀ a, (![0, 0, 0, 0] : Fin 4 → Nat) a + S1x8x256x512.size a ≤ S1x8x256x512.size a
  h_S1x8x256x512 : 0 < S1x8x256x512.numel
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S1x1x1x512 : S1x1x1x512.ShapeCasts S1x1x1x512
  broadcasts_S1x1x1x512_S1x8x256x512 : S1x1x1x512.Broadcasts S1x8x256x512
  gather_S13x4_S16x512x1_S16x512x4_2_0_n_n_0_2_14_wf : GatherDims.WF S13x4 S16x512x1 S16x512x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S16x8x1024x512.size a
  hwx0_0 : ∀ i : grid0.Coords, EltTy.bits .f32 = 32 ∨ (Rect.block (s := S16x8x1024x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x512.size a ≤ S16x1x1x512.size a
  hwx0_1 : ∀ i : grid0.Coords, EltTy.bits .f32 = 32 ∨ (Rect.block (s := S16x1x1x512) S1x1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x512.size a ≤ S16x1x1x512.size a
  hwx0_2 : ∀ i : grid0.Coords, EltTy.bits .f32 = 32 ∨ (Rect.block (s := S16x1x1x512) S1x1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x512.size a ≤ S16x1x1x512.size a
  hwx0_3 : ∀ i : grid0.Coords, EltTy.bits .f32 = 32 ∨ (Rect.block (s := S16x1x1x512) S1x1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x512.size a ≤ S16x1x1x512.size a
  hwx0_4 : ∀ i : grid0.Coords, EltTy.bits .f32 = 32 ∨ (Rect.block (s := S16x1x1x512) S1x1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x256x512.size a ≤ S16x8x1024x512.size a
  hwx0_5 : ∀ i : grid0.Coords, EltTy.bits .f32 = 32 ∨ (Rect.block (s := S16x8x1024x512) S1x8x256x512.size (cc0_transform_5 i) (hinb0_5 i)).WholeWords (EltTy.packing .f32)

variable [Facts₀]

def gather_S13x4_S16x512x1_S16x512x4_2_0_n_n_0_2_14 : GatherDims S13x4 S16x512x1 S16x512x4 where
  offsetDims := [2]
  collapsedSliceDims := [0]
  operandBatchingDims := []
  startIndicesBatchingDims := []
  startIndexMap := [0]
  indexVectorDim := 2
  sliceSizes := ![1, 4]
  wf := gather_S13x4_S16x512x1_S16x512x4_2_0_n_n_0_2_14_wf

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x8x256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8x1024x512 : Shape := ⟨4, ![16, 8, 1024, 512]⟩
abbrev S16x512 : Shape := ⟨2, ![16, 512]⟩
abbrev S13x4 : Shape := ⟨2, ![13, 4]⟩
abbrev S_ : Shape := ⟨0, ![]⟩
abbrev S16x512x1 : Shape := ⟨3, ![16, 512, 1]⟩
abbrev S16x512x4 : Shape := ⟨3, ![16, 512, 4]⟩
abbrev S16x1x1x512 : Shape := ⟨4, ![16, 1, 1, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x8x1024x512, .f32⟩
  | .hbm, ⟨1, _⟩ => ⟨S16x512, .i32⟩
  | .hbm, ⟨2, _⟩ => ⟨S13x4, .f32⟩
  | .hbm, ⟨3, _⟩ => ⟨S_, .i32⟩
  | .hbm, ⟨4, _⟩ => ⟨S16x512, .i32⟩
  | .hbm, ⟨5, _⟩ => ⟨S16x512, .i1⟩
  | .hbm, ⟨6, _⟩ => ⟨S_, .i32⟩
  | .hbm, ⟨7, _⟩ => ⟨S16x512, .i32⟩
  | .hbm, ⟨8, _⟩ => ⟨S16x512, .i32⟩
  | .hbm, ⟨9, _⟩ => ⟨S16x512, .i32⟩
  | .hbm, ⟨10, _⟩ => ⟨S16x512x1, .i32⟩
  | .hbm, ⟨11, _⟩ => ⟨S16x512x4, .f32⟩
  | .hbm, ⟨12, _⟩ => ⟨S16x512x1, .f32⟩
  | .hbm, ⟨13, _⟩ => ⟨S16x512, .f32⟩
  | .hbm, ⟨14, _⟩ => ⟨S16x1x1x512, .f32⟩
  | .hbm, ⟨15, _⟩ => ⟨S16x512x1, .f32⟩
  | .hbm, ⟨16, _⟩ => ⟨S16x512, .f32⟩
  | .hbm, ⟨17, _⟩ => ⟨S16x1x1x512, .f32⟩
  | .hbm, ⟨18, _⟩ => ⟨S16x512x1, .f32⟩
  | .hbm, ⟨19, _⟩ => ⟨S16x512, .f32⟩
  | .hbm, ⟨20, _⟩ => ⟨S16x1x1x512, .f32⟩
  | .hbm, ⟨21, _⟩ => ⟨S16x512x1, .f32⟩
  | .hbm, ⟨22, _⟩ => ⟨S16x512, .f32⟩
  | .hbm, ⟨23, _⟩ => ⟨S16x1x1x512, .f32⟩
  | .hbm, ⟨24, _⟩ => ⟨S16x8x1024x512, .f32⟩
  | .hbm, ⟨25, _⟩ => ⟨S16x8x1024x512, .f32⟩
  | .hbm, ⟨26, _⟩ => ⟨S16x8x1024x512, .f32⟩
  | .hbm, ⟨27, _⟩ => ⟨S16x8x1024x512, .f32⟩
  | .hbm, ⟨28, _⟩ => ⟨S16x8x1024x512, .f32⟩
  | .hbm, ⟨29, _⟩ => ⟨S16x8x1024x512, .f32⟩
  | .hbm, ⟨30, _⟩ => ⟨S16x8x1024x512, .f32⟩
  | .hbm, ⟨31, _⟩ => ⟨S16x8x1024x512, .f32⟩
  | .hbm, ⟨32, _⟩ => ⟨S16x8x1024x512, .f32⟩
  | _, _ => ⟨S16x8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  slices_S16x512x4_S16x512x1_0_0_0 : S16x512x4.Slices ![0, 0, 0] S16x512x1
  shapeCasts_S16x512x1_S16x512 : S16x512x1.ShapeCasts S16x512
  bcast_S16x512_S16x1x1x512_0_3 : S16x512.BroadcastsInDim S16x1x1x512 (![0, 3] : Fin 2 → Fin S16x1x1x512.rank)
  slices_S16x512x4_S16x512x1_0_0_1 : S16x512x4.Slices ![0, 0, 1] S16x512x1
  slices_S16x512x4_S16x512x1_0_0_2 : S16x512x4.Slices ![0, 0, 2] S16x512x1
  slices_S16x512x4_S16x512x1_0_0_3 : S16x512x4.Slices ![0, 0, 3] S16x512x1
  bcast_S16x1x1x512_S16x8x1024x512_0_1_2_3 : S16x1x1x512.BroadcastsInDim S16x8x1024x512 (![0, 1, 2, 3] : Fin 4 → Fin S16x8x1024x512.rank)
  gather_S13x4_S16x512x1_S16x512x4_2_0_n_n_0_2_14_wf : GatherDims.WF S13x4 S16x512x1 S16x512x4 [2] [0] [] [0] [] 2 ![1, 4]

variable [Facts₀]

def gather_S13x4_S16x512x1_S16x512x4_2_0_n_n_0_2_14 : GatherDims S13x4 S16x512x1 S16x512x4 where
  offsetDims := [2]
  collapsedSliceDims := [0]
  operandBatchingDims := []
  startIndicesBatchingDims := []
  startIndexMap := [0]
  indexVectorDim := 2
  sliceSizes := ![1, 4]
  wf := gather_S13x4_S16x512x1_S16x512x4_2_0_n_n_0_2_14_wf

class Facts : Prop extends Facts₀ where

variable [Facts]
-- ==== Proof.AffineTanhSpec.lean ====
/-
  The result both programs compute, as ONE function of the activations and of the table of parameters.

  The activations `z` are indexed by (b, n, r, f): batch, sample, row, feature. Every (batch, feature) pair carries
  four parameters η₀, η₁, η₂, η₃ — row (b, f) of a table `T` of shape [16, 512, 4]. The result at (b, n, r, f) is

      η₀ + η₁ · tanh ((z(b, n, r, f) − η₂) · η₃),        ηₖ = T(b, f, k),

  read on the extended reals: the sum, the difference and the two products are the extended reals' own, and `tanh` is
  continued to the infinities by its limits −1 and 1. The parameters depend on the batch and the feature only, so one
  row of the table serves all 8 · 1024 activations that share its (b, f).

  How the table comes out of the integer mask and the 13 × 4 array of fault modes plays no part in the comparison: both
  programs look it up in the same way, so here it is a variable.
-/
import Idealize.ShloMosaic.PureOps.Ideal

noncomputable section

namespace Cert.AffineTanh

open Idealize.ShloMosaic

/-- The activations' shape: batch × samples × rows × features. -/
abbrev SAct : Shape := ⟨4, ![16, 8, 1024, 512]⟩

/-- The parameter table's shape: batch × features × the four parameters. -/
abbrev STbl : Shape := ⟨3, ![16, 512, 4]⟩

/-- Where parameter `k` of the activation at `i = (b, n, r, f)` sits in the table: at `(b, f, k)`. The sample `n` and the
    row `r` are not looked at. -/
def param (k : Fin 4) (i : SAct.Idx) : STbl.Idx := fun a => match a with
  | ⟨0, _⟩ => ⟨(i 0).val, (i 0).isLt⟩
  | ⟨1, _⟩ => ⟨(i 3).val, (i 3).isLt⟩
  | ⟨2, _⟩ => ⟨k.val, k.isLt⟩

/-- The affine-tanh response of the activations `z` under the parameter table `T`, entry by entry:
    `η₀ + η₁ · tanh ((z − η₂) · η₃)` with `ηₖ = T(b, f, k)`. -/
def response (z : FVec Ideal SAct .f32) (T : FVec Ideal STbl .f32) : FVec Ideal SAct .f32 := fun i =>
  T (param 0 i) + T (param 1 i) * Ideal.tanh ((z i - T (param 2 i)) * T (param 3 i))

end Cert.AffineTanh

end
-- ==== Proof.ParameterTable.lean ====
/-
  The four parameter arrays the kernel is launched on, as columns of one table.

  Before the launch the host code turns the integer mask into row numbers of the 13 × 4 array of fault modes (an entry
  below zero is moved up by 13), looks row mask(b, f) up for every (batch, feature) pair — the table, of shape
  [16, 512, 4] — and hands the kernel four arrays of shape [16, 1, 1, 512]: column `k` of the table cut out as a
  [16, 512, 1] slice, flattened to [16, 512] and given two unit axes in the middle. Both re-layings keep the row-major
  order of the 16 · 512 entries, so entry (b, 0, 0, f) of the k-th array is table entry (b, f, k).
-/
import proofs.«124102_j45406394253467_1_alg».proof.Proof.Gen.KernelIdeal.Frame
import Idealize.ShloMosaic.Lib.Pipeline.Value
import Idealize.ShloMosaic.Lib.StableHlo.Run

noncomputable section

namespace Cert.KernelIdeal.Table

open Cert.KernelIdeal Cert.KernelIdeal.Gen Idealize.ShloMosaic Idealize.ShloMosaic.TcCoe Idealize.SL.Sem
open Idealize.ShloMosaic.StableHlo

variable {F : FTy → Type} [FloatOps F]

/-- The table of parameters the host code looks up before the launch, from the mask `x1` and the fault modes `x2`:
    row `mask(b, f)` of `x2` for every `(b, f)`, a mask entry below zero first moved up by 13. -/
def table (x1 : (⟨S16x512, .i32⟩ : BufTy).Contents (Elt F)) (x2 : (⟨S13x4, .f32⟩ : BufTy).Contents (Elt F)) :
    (⟨S16x512x4, .f32⟩ : BufTy).Contents (Elt F) :=
  Host.gather gather_S13x4_S16x512x1_S16x512x4_2_0_n_n_0_2_14 (x2)
    (broadcastInDim S16x512x1 ![0, 1] bcast_S16x512_S16x512x1_0_1
      (select (cmpi .slt (x1) (broadcastInDim S16x512 ![] bcast_S_S16x512 (constantI S_ 32 0#32)))
        (addi (x1) (broadcastInDim S16x512 ![] bcast_S_S16x512 (constantI S_ 32 13#32))) (x1)))

/-- Column `k` of a table as the [16, 1, 1, 512] array the kernel is handed: sliced, flattened, unit axes added. -/
def column (k : Nat) (hs : S16x512x4.Slices ![0, 0, k] S16x512x1) (T : (⟨S16x512x4, .f32⟩ : BufTy).Contents (Elt F)) :
    (⟨S16x1x1x512, .f32⟩ : BufTy).Contents (Elt F) :=
  shapeCast _ (shapeCast _ (extractStridedSlice S16x512x1 ![0, 0, k] T hs) shapeCasts_S16x512x1_S16x512)
    shapeCasts_S16x512_S16x1x1x512

/-- Where entry `j = (b, 0, 0, f)` of column `k` sits in the table: at `(b, f, k)`. -/
def entry (k : Nat) (hk : k < 4) (j : S16x1x1x512.Idx) : S16x512x4.Idx := fun a => match a with
  | ⟨0, _⟩ => ⟨(j 0).val, (j 0).isLt⟩
  | ⟨1, _⟩ => ⟨(j 3).val, (j 3).isLt⟩
  | ⟨2, _⟩ => ⟨k, hk⟩

/-- A column read at an entry is the table read at `(b, f, k)`: the two reshapes keep the row-major position
    `b · 512 + f`, and the slice adds its offset `k` on the last axis. -/
theorem column_apply (k : Nat) (hk : k < 4) (hs : S16x512x4.Slices ![0, 0, k] S16x512x1)
    (T : (⟨S16x512x4, .f32⟩ : BufTy).Contents (Elt F)) (j : S16x1x1x512.Idx) :
    column k hs T j = T (entry k hk j) := by
  have h0 : (j 0).val < 16 := (j 0).isLt
  have h1 : (j 1).val < 1 := (j 1).isLt
  have h2 : (j 2).val < 1 := (j 2).isLt
  have h3 : (j 3).val < 512 := (j 3).isLt
  unfold column
  refine (shapeCast_apply _ shapeCasts_S16x512_S16x1x1x512 j
    (fun a => match a with | ⟨0, _⟩ => ⟨(j 0).val, h0⟩ | ⟨1, _⟩ => ⟨(j 3).val, h3⟩ : S16x512.Idx) ?_).trans ?_
  · rewrite [Shape.rowMajor_val_two, Shape.rowMajor_val_four]
    show (j 0).val * 512 + (j 3).val = (((j 0).val * 1 + (j 1).val) * 1 + (j 2).val) * 512 + (j 3).val
    omega
  refine (shapeCast_apply _ shapeCasts_S16x512x1_S16x512 _
    (fun a => match a with | ⟨0, _⟩ => ⟨(j 0).val, h0⟩ | ⟨1, _⟩ => ⟨(j 3).val, h3⟩ | ⟨2, _⟩ => ⟨0, Nat.one_pos⟩ : S16x512x1.Idx) ?_).trans ?_
  · rewrite [Shape.rowMajor_val_three, Shape.rowMajor_val_two]
    show ((j 0).val * 512 + (j 3).val) * 1 + 0 = (j 0).val * 512 + (j 3).val
    omega
  exact extractStridedSlice_apply ![0, 0, k] T hs _ (entry k hk j) (fun a => match a with
    | ⟨0, _⟩ => by show (j 0).val = 0 + (j 0).val; omega
    | ⟨1, _⟩ => by show (j 3).val = 0 + (j 3).val; omega
    | ⟨2, _⟩ => by show k = k + 0; omega)

variable (m : (ℓ : Loc nD τ sig) → Buf (Elt F) ℓ)

/-- The array under the kernel's second window, as the launch finds it, is column 0 of the table. -/
theorem launched_param0 (c : Dev nD) :
    (V m c main_v9 : (⟨S16x1x1x512, .f32⟩ : BufTy).Contents (Elt F))
      = column 0 slices_S16x512x4_S16x512x1_0_0_0
          (table (m ((c : Thread nD τ).loc main_arg1)) (m ((c : Thread nD τ).loc main_arg2))) := by
  dsimp only [Gen.V, Gen.hostOps0]
  after_results
  rfl

/-- The array under the third window is column 1. -/
theorem launched_param1 (c : Dev nD) :
    (V m c main_v12 : (⟨S16x1x1x512, .f32⟩ : BufTy).Contents (Elt F))
      = column 1 slices_S16x512x4_S16x512x1_0_0_1
          (table (m ((c : Thread nD τ).loc main_arg1)) (m ((c : Thread nD τ).loc main_arg2))) := by
  dsimp only [Gen.V, Gen.hostOps0]
  after_results
  rfl

/-- The array under the fourth window is column 2. -/
theorem launched_param2 (c : Dev nD) :
    (V m c main_v15 : (⟨S16x1x1x512, .f32⟩ : BufTy).Contents (Elt F))
      = column 2 slices_S16x512x4_S16x512x1_0_0_2
          (table (m ((c : Thread nD τ).loc main_arg1)) (m ((c : Thread nD τ).loc main_arg2))) := by
  dsimp only [Gen.V, Gen.hostOps0]
  after_results
  rfl

/-- The array under the fifth window is column 3. -/
theorem launched_param3 (c : Dev nD) :
    (V m c main_v18 : (⟨S16x1x1x512, .f32⟩ : BufTy).Contents (Elt F))
      = column 3 slices_S16x512x4_S16x512x1_0_0_3
          (table (m ((c : Thread nD τ).loc main_arg1)) (m ((c : Thread nD τ).loc main_arg2))) := by
  dsimp only [Gen.V, Gen.hostOps0]
  after_results
  rfl

end Cert.KernelIdeal.Table

end
-- ==== Proof.KernelResponse.lean ====
/-
  The kernel's result array is the affine-tanh response.

  The kernel runs on a 16 × 4 grid. At the point (b, q) its body sees one block of the activations — batch `b`, all 8
  samples, rows 256·q … 256·q + 255, all 512 features — and, from each of the four parameter arrays, the block of batch
  `b` (one row of 512 features, the same for every `q`). It writes  η₀ + η₁ · tanh ((z − η₂) · η₃)  over the activation
  block, each parameter row repeated over the samples and rows, back to the same block of the result array.

  Read at a block index the repeats drop the sample and the row, so what the point writes at `y` depends on the activation
  under `y` and on the parameters at (b, 0, 0, f) — table entries (b, f, k). That is the response of the whole arrays read
  through the point's block. The 64 blocks tile the result array (the block holding (b, n, r, f) is the one at the point
  (b, r / 256)), so the array ends as the response everywhere.
-/
import proofs.«124102_j45406394253467_1_alg».proof.Proof.Gen.KernelIdeal.Value
import proofs.«124102_j45406394253467_1_alg».proof.Proof.AffineTanhSpec
import proofs.«124102_j45406394253467_1_alg».proof.Proof.ParameterTable

noncomputable section

namespace Cert.KernelIdeal.Response

open Cert.KernelIdeal Cert.KernelIdeal.Gen Cert.KernelIdeal.Value Cert.KernelIdeal.Table Cert.AffineTanh
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's loads and its store start at the origin of their buffers. -/
theorem origin : (![0, 0, 0, 0] : Fin 4 → Nat) = fun _ => 0 := funext fun a => by fin_cases a <;> rfl

/-- The index maps, decided over the 64 points: the activation window moves with the result window on every axis; each
    parameter window follows it on the batch axis and stays at feature block 0, where the result window also is. -/
theorem windows_move_together : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = win0_5.index t (3 : Fin 4))
    ∧ (win0_1.index t (0 : Fin 4) = win0_5.index t (0 : Fin 4) ∧ win0_1.index t (3 : Fin 4) = win0_5.index t (3 : Fin 4))
    ∧ (win0_2.index t (0 : Fin 4) = win0_5.index t (0 : Fin 4) ∧ win0_2.index t (3 : Fin 4) = win0_5.index t (3 : Fin 4))
    ∧ (win0_3.index t (0 : Fin 4) = win0_5.index t (0 : Fin 4) ∧ win0_3.index t (3 : Fin 4) = win0_5.index t (3 : Fin 4))
    ∧ (win0_4.index t (0 : Fin 4) = win0_5.index t (0 : Fin 4) ∧ win0_4.index t (3 : Fin 4) = win0_5.index t (3 : Fin 4)) :=
  (by decide +kernel : ∀ t : Fin grid0.N, _)

/-- Every (batch, row block) pair is some point's: the result window visits block `(b, 0, q, 0)` for every
    `b < 16`, `q < 4`. -/
theorem every_block_visited : ∀ (b : Fin 16) (q : Fin 4), ∃ t : Fin cfg0.N, win0_5.index t = ![b.val, 0, q.val, 0] :=
  (by decide +kernel : ∀ (b : Fin 16) (q : Fin 4), ∃ t : Fin grid0.N, win0_5.index t = ![b.val, 0, q.val, 0])

/-- A parameter array read where the body reads it is the table entry the response asks for: the array is a column of
    the table, and the two indices share their batch and feature coordinates. -/
theorem param_read (k : Nat) (hk : k < 4) (hs : S16x512x4.Slices ![0, 0, k] S16x512x1)
    (T : (⟨S16x512x4, .f32⟩ : BufTy).Contents (Elt Ideal)) (A : (⟨S16x1x1x512, .f32⟩ : BufTy).Contents (Elt Ideal))
    (hA : A = column k hs T) (j : S16x1x1x512.Idx) (i : S16x8x1024x512.Idx)
    (hb : (j 0).val = (i 0).val) (hf : (j 3).val = (i 3).val) (k' : Fin 4) (hk' : k'.val = k) :
    A j = T (param k' i) := by
  rw [hA, column_apply k hk hs T j]
  congr 1
  funext a; apply Fin.ext
  match a with
  | ⟨0, _⟩ => exact hb
  | ⟨1, _⟩ => exact hf
  | ⟨2, _⟩ => exact hk'.symm

/-- What the body leaves in the result block, for ANY loaded blocks: at the block index `x`,
    `X₁ + X₂ · tanh ((X₀ − X₃) · X₄)`, the four parameter rows read at `x`'s feature and the activations at `x`. -/
theorem body_result (X0 : Vec Ideal S1x8x256x512 .f32) (X1 X2 X3 X4 : Vec Ideal S1x1x1x512 .f32) :
    out0_5 X0 X1 X2 X3 X4 = E5 X1 X2 X0 X3 X4 := by
  unfold out0_5
  simp only [View.ld_unit_zero (S := S1x8x256x512) origin, View.ld_unit_zero (S := S1x1x1x512) origin]
  exact funext (canon5_eq X1 X2 X0 X3 X4)

/-- AT A POINT `t`, the body's result at the block index `x` is the response at the array index `i` that `x` sits
    over in the result window's block (`h0` … `h3`: coordinate by coordinate, block number × block extent + offset): the
    activation window's block lies over the same indices, and each parameter window's block is the row of `i`'s batch. -/
theorem point_value (c : Dev nD) (t : Fin cfg0.N) (x : S1x8x256x512.Idx) (i : S16x8x1024x512.Idx)
    (h0 : (i 0).val = win0_5.index t (0 : Fin 4) * 1 + 1 * (x 0).val)
    (h1 : (i 1).val = win0_5.index t (1 : Fin 4) * 8 + 1 * (x 1).val)
    (h2 : (i 2).val = win0_5.index t (2 : Fin 4) * 256 + 1 * (x 2).val)
    (h3 : (i 3).val = win0_5.index t (3 : Fin 4) * 512 + 1 * (x 3).val) :
    E5 (F := Ideal) (iblk m c 1 t) (iblk m c 2 t) (iblk m c 0 t) (iblk m c 3 t) (iblk m c 4 t) x
      = response (V m c main_arg0) (table (m ((c : Thread nD τ).loc main_arg1)) (m ((c : Thread nD τ).loc main_arg2))) i := by
  obtain ⟨⟨z0, z1, z2, z3⟩, ⟨a0, a3⟩, ⟨b0, b3⟩, ⟨c0, c3⟩, ⟨d0, d3⟩⟩ := windows_move_together t
  have hx0 : (x 0).val < 1 := (x 0).isLt
  have hx1 : (x 1).val < 8 := (x 1).isLt
  have hx2 : (x 2).val < 256 := (x 2).isLt
  have hx3 : (x 3).val < 512 := (x 3).isLt
  -- the activation under `x`
  have ez : iblk m c 0 t (ix5_2 x) = V m c main_arg0 i := by
    show V m c main_arg0 (((cfg0.win 0).blk t).view.emb (ix5_2 x)) = V m c main_arg0 i
    congr 1
    funext a; apply Fin.ext
    match a with
    | ⟨0, _⟩ => show win0_0.index t (0 : Fin 4) * 1 + 1 * 0 = (i 0).val; omega
    | ⟨1, _⟩ => show win0_0.index t (1 : Fin 4) * 8 + 1 * (x 1).val = (i 1).val; omega
    | ⟨2, _⟩ => show win0_0.index t (2 : Fin 4) * 256 + 1 * (x 2).val = (i 2).val; omega
    | ⟨3, _⟩ => show win0_0.index t (3 : Fin 4) * 512 + 1 * (x 3).val = (i 3).val; omega
  -- the four parameters under `x`
  have e0 : iblk m c 1 t (ix5_0 x) = table (m ((c : Thread nD τ).loc main_arg1)) (m ((c : Thread nD τ).loc main_arg2)) (param 0 i) := by
    show V m c main_v9 (((cfg0.win 1).blk t).view.emb (ix5_0 x)) = _
    refine param_read 0 (by decide) _ _ _ (launched_param0 m c) _ _ ?_ ?_ 0 rfl
    · show win0_1.index t (0 : Fin 4) * 1 + 1 * 0 = (i 0).val; omega
    · show win0_1.index t (3 : Fin 4) * 512 + 1 * (x 3).val = (i 3).val; omega
  have e1 : iblk m c 2 t (ix5_1 x) = table (m ((c : Thread nD τ).loc main_arg1)) (m ((c : Thread nD τ).loc main_arg2)) (param 1 i) := by
    show V m c main_v12 (((cfg0.win 2).blk t).view.emb (ix5_1 x)) = _
    refine param_read 1 (by decide) _ _ _ (launched_param1 m c) _ _ ?_ ?_ 1 rfl
    · show win0_2.index t (0 : Fin 4) * 1 + 1 * 0 = (i 0).val; omega
    · show win0_2.index t (3 : Fin 4) * 512 + 1 * (x 3).val = (i 3).val; omega
  have e2 : iblk m c 3 t (ix5_3 x) = table (m ((c : Thread nD τ).loc main_arg1)) (m ((c : Thread nD τ).loc main_arg2)) (param 2 i) := by
    show V m c main_v15 (((cfg0.win 3).blk t).view.emb (ix5_3 x)) = _
    refine param_read 2 (by decide) _ _ _ (launched_param2 m c) _ _ ?_ ?_ 2 rfl
    · show win0_3.index t (0 : Fin 4) * 1 + 1 * 0 = (i 0).val; omega
    · show win0_3.index t (3 : Fin 4) * 512 + 1 * (x 3).val = (i 3).val; omega
  have e3 : iblk m c 4 t (ix5_4 x) = table (m ((c : Thread nD τ).loc main_arg1)) (m ((c : Thread nD τ).loc main_arg2)) (param 3 i) := by
    show V m c main_v18 (((cfg0.win 4).blk t).view.emb (ix5_4 x)) = _
    refine param_read 3 (by decide) _ _ _ (launched_param3 m c) _ _ ?_ ?_ 3 rfl
    · show win0_4.index t (0 : Fin 4) * 1 + 1 * 0 = (i 0).val; omega
    · show win0_4.index t (3 : Fin 4) * 512 + 1 * (x 3).val = (i 3).val; omega
  unfold E5
  rw [ez, e0, e1, e2, e3]
  rfl

/-- WHAT A POINT WRITES BACK is its block of the response of the activations under the table, both as the launch finds
    them: the body's result at every block index, read over the array index beneath it. -/
theorem flushed_eq (c : Dev nD) (t : Fin cfg0.N) :
    (dats m 0 c).flushed 5 t = ((cfg0.win 5).blk t).view.read (Elt Ideal)
      (response (V m c main_arg0) (table (m ((c : Thread nD τ).loc main_arg1)) (m ((c : Thread nD τ).loc main_arg2)))) := by
  rw [flushed5, body_result (iblk m c 0 t) (iblk m c 1 t) (iblk m c 2 t) (iblk m c 3 t) (iblk m c 4 t)]
  funext y
  exact point_value m c t ((cfg0.win 5).xinj (grid0.coords t) y) (((cfg0.win 5).blk t).view.emb y) rfl rfl rfl rfl

/-- An index of the result array is in point `t`'s block iff each coordinate is in the block's range on its axis. -/
theorem mem_block (t : Fin cfg0.N) (i : S16x8x1024x512.Idx) :
    i ∈ ((cfg0.win 5).blk t).view.set ↔ ∀ a : Fin 4, win0_5.index t a * S1x8x256x512.size a ≤ (i a).val
      ∧ (i a).val < win0_5.index t a * S1x8x256x512.size a + S1x8x256x512.size a := by
  show i ∈ ((View.whole main_v19).slice (win0_5.rect t)).set ↔ _
  rw [View.set_slice_whole, Rect.mem_set_unit]
  exact Iff.rfl

/-- The blocks tile the result array: `(b, n, r, f)` is in the block of the point visiting `(b, 0, r / 256, 0)`. -/
theorem blocks_cover (i : S16x8x1024x512.Idx) :
    ∃ t : Fin cfg0.N, (cfg0.win 5).flush t = true ∧ i ∈ ((cfg0.win 5).blk t).view.set := by
  have hi0 : (i 0).val < 16 := (i 0).isLt
  have hi1 : (i 1).val < 8 := (i 1).isLt
  have hi2 : (i 2).val < 1024 := (i 2).isLt
  have hi3 : (i 3).val < 512 := (i 3).isLt
  obtain ⟨t, ht⟩ := every_block_visited ⟨(i 0).val, hi0⟩ ⟨(i 2).val / 256, by omega⟩
  have q0 : win0_5.index t (0 : Fin 4) = (i 0).val := congrFun ht 0
  have q1 : win0_5.index t (1 : Fin 4) = 0 := congrFun ht 1
  have q2 : win0_5.index t (2 : Fin 4) = (i 2).val / 256 := congrFun ht 2
  have q3 : win0_5.index t (3 : Fin 4) = 0 := congrFun ht 3
  refine ⟨t, flush0_5 t, ?_⟩
  rw [mem_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 256 ≤ (i 2).val ∧ (i 2).val < win0_5.index t (2 : Fin 4) * 256 + 256; omega
  | ⟨3, _⟩ => show win0_5.index t (3 : Fin 4) * 512 ≤ (i 3).val ∧ (i 3).val < win0_5.index t (3 : Fin 4) * 512 + 512; omega

/-- THE RESULT ARRAY after the run is the response of the activations under the looked-up table, both as launched. -/
theorem final (c : Dev nD) :
    (dats m 0 c).arrAt 5 cfg0.N = response (m ((c : Thread nD τ).loc main_arg0))
      (table (m ((c : Thread nD τ).loc main_arg1)) (m ((c : Thread nD τ).loc main_arg2))) := by
  rw [← V_main_arg0 m c]
  exact (dats m 0 c).arrAt_eq_of_cover 5 _ (fun t _ => flushed_eq m c t) blocks_cover

/-- The kernel's run, read: every weakly fair execution ends with the result array at the response and the three
    argument arrays unchanged. -/
theorem run : θ_run defs (onTc (τ := τ) (main (F := Ideal))) ⟨m, fun _ => 0, ρ⟩ fun r => ∀ c : Dev nD,
      r.2.mem ((c : Thread nD τ).loc main_v19) = response (m ((c : Thread nD τ).loc main_arg0))
        (table (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Response

end
-- ==== Proof.ReferenceResponse.lean ====
/-
  The reference program computes the affine-tanh response.

  Its result is built outermost-first as  η₀ + η₁ · tanh ((z − η₂) · η₃),  each ηₖ a [16, 512] array stretched over the
  samples and rows: column `k` of the looked-up table is cut out as a [16, 512, 1] slice, flattened to [16, 512], given
  two unit axes in the middle ([16, 1, 1, 512]) and then repeated along them. Read at an activation index (b, n, r, f) that
  chain of re-layings lands on table entry (b, f, k): the repeats drop `n` and `r`, the unit axes drop out, the
  flattening of (b, f, 0) back to (b, f) is row-major arithmetic with a last axis of extent one, and the slice adds its
  offset `k` to the last coordinate. With the four chains identified the two sides are the same expression on the
  extended reals, the host's `tanh` being the same function as the one in the specification.
-/
import proofs.«124102_j45406394253467_1_alg».proof.Proof.Gen.ReferenceIdeal.Read
import proofs.«124102_j45406394253467_1_alg».proof.Proof.AffineTanhSpec

noncomputable section

namespace Cert.ReferenceIdeal.Response

open Cert.ReferenceIdeal Cert.ReferenceIdeal.Gen Cert.ReferenceIdeal.Read Idealize.ShloMosaic Cert.AffineTanh

/-- Parameter 0 at `(b, n, r, f)`: repeat, unit axes, flattening and the slice at offset 0 together read table entry
    `(b, f, 0)`. -/
theorem chain0 (i : S16x8x1024x512.Idx) :
    idx_main_v7 (idx_main_v8 (idx_main_v9 (idx_main_v26 i))) = param 0 i := by
  have h0 : (i 0).val < 16 := (i 0).isLt
  have h3 : (i 3).val < 512 := (i 3).isLt
  funext a; apply Fin.ext
  match a with
  | ⟨0, _⟩ => show ((i 0).val * 512 + (i 3).val) / 512 = (i 0).val; omega
  | ⟨1, _⟩ => show ((i 0).val * 512 + (i 3).val) / 1 % 512 = (i 3).val; omega
  | ⟨2, _⟩ => rfl

/-- Parameter 1 at `(b, n, r, f)` is table entry `(b, f, 1)`. -/
theorem chain1 (i : S16x8x1024x512.Idx) :
    idx_main_v10 (idx_main_v11 (idx_main_v12 (idx_main_v24 i))) = param 1 i := by
  have h0 : (i 0).val < 16 := (i 0).isLt
  have h3 : (i 3).val < 512 := (i 3).isLt
  funext a; apply Fin.ext
  match a with
  | ⟨0, _⟩ => show ((i 0).val * 512 + (i 3).val) / 512 = (i 0).val; omega
  | ⟨1, _⟩ => show ((i 0).val * 512 + (i 3).val) / 1 % 512 = (i 3).val; omega
  | ⟨2, _⟩ => rfl

/-- Parameter 2 at `(b, n, r, f)` is table entry `(b, f, 2)`. -/
theorem chain2 (i : S16x8x1024x512.Idx) :
    idx_main_v13 (idx_main_v14 (idx_main_v15 (idx_main_v19 i))) = param 2 i := by
  have h0 : (i 0).val < 16 := (i 0).isLt
  have h3 : (i 3).val < 512 := (i 3).isLt
  funext a; apply Fin.ext
  match a with
  | ⟨0, _⟩ => show ((i 0).val * 512 + (i 3).val) / 512 = (i 0).val; omega
  | ⟨1, _⟩ => show ((i 0).val * 512 + (i 3).val) / 1 % 512 = (i 3).val; omega
  | ⟨2, _⟩ => rfl

/-- Parameter 3 at `(b, n, r, f)` is table entry `(b, f, 3)`. -/
theorem chain3 (i : S16x8x1024x512.Idx) :
    idx_main_v16 (idx_main_v17 (idx_main_v18 (idx_main_v21 i))) = param 3 i := by
  have h0 : (i 0).val < 16 := (i 0).isLt
  have h3 : (i 3).val < 512 := (i 3).isLt
  funext a; apply Fin.ext
  match a with
  | ⟨0, _⟩ => show ((i 0).val * 512 + (i 3).val) / 512 = (i 0).val; omega
  | ⟨1, _⟩ => show ((i 0).val * 512 + (i 3).val) / 1 % 512 = (i 3).val; omega
  | ⟨2, _⟩ => rfl

/-- The reference's last stage, as a function of the activations `x0`, the mask `x1` and the fault-mode array `x2`, is
    the affine-tanh response of `x0` under the table the reference looks up from `x1` and `x2`. -/
theorem reference_is_response (x0 : (⟨S16x8x1024x512, .f32⟩ : BufTy).Contents (Elt Ideal))
    (x1 : (⟨S16x512, .i32⟩ : BufTy).Contents (Elt Ideal)) (x2 : (⟨S13x4, .f32⟩ : BufTy).Contents (Elt Ideal)) :
    val_main_v27 (F := Ideal) x0 x1 x2 = response x0 (val_main_v6 (F := Ideal) x1 x2) := by
  funext i
  rw [val_main_v27_apply, val_main_v26_apply, val_main_v9_apply, val_main_v8_apply, val_main_v7_apply,
    val_main_v25_apply, val_main_v24_apply, val_main_v12_apply, val_main_v11_apply, val_main_v10_apply,
    val_main_v23_apply, val_main_v22_apply, val_main_v20_apply, val_main_v19_apply, val_main_v15_apply,
    val_main_v14_apply, val_main_v13_apply, val_main_v21_apply, val_main_v18_apply, val_main_v17_apply,
    val_main_v16_apply, chain0, chain1, chain2, chain3]
  rfl

end Cert.ReferenceIdeal.Response

end
-- ==== Proof.lean ====
/-
  A Pallas kernel for the affine-tanh response of a batch of activations, against its plain reference.

  The activations `z` have shape [16, 8, 1024, 512] — batch, sample, row, feature. An integer mask of shape [16, 512]
  names, for every (batch, feature) pair, one of 13 fault modes, and each fault mode carries four parameters
  η₀, η₁, η₂, η₃ (an array of shape [13, 4]). Both programs compute, for every activation,

      η₀ + η₁ · tanh ((z − η₂) · η₃)        with the parameters of the fault mode  mask(b, f).

  They agree on how the parameters are found: the same host code moves a mask entry below zero up by 13, looks the rows
  up into a table of shape [16, 512, 4], and cuts its four columns out. They differ in the rest. The reference gives
  each column two unit axes by a broadcast and evaluates the formula on whole arrays; the kernel gets the unit axes by a
  reshape and evaluates the formula block by block on a 16 × 4 grid — one batch and 256 rows at a time — each point
  writing its block of the result. Neither difference touches a value: a reshape and a broadcast into unit axes read the
  same entry, and the 64 blocks tile the result. The arithmetic is the same expression with the same grouping on both
  sides, so on the extended reals the two results are equal at every index for ANY contents of the arrays, infinite ones
  included; the finiteness of the inputs is not used.

  The pieces: the response as one function of the activations and the table (AffineTanhSpec); the reference's result is
  that function of its table (ReferenceResponse); the kernel's four parameter arrays are the table's columns
  (ParameterTable); the kernel's result array is that function of its table (KernelResponse); and below, the two tables
  are one term, the three programs run to completion leaving their arguments as they were, and the kernel's text needed
  no rewriting to be read on the extended reals.
-/
import proofs.«124102_j45406394253467_1_alg».proof.Defs
import proofs.«124102_j45406394253467_1_alg».proof.Proof.Gen.Kernel
import proofs.«124102_j45406394253467_1_alg».proof.Proof.Gen.Kernel.Skeleton
import proofs.«124102_j45406394253467_1_alg».proof.Proof.Gen.Kernel.Launch
import proofs.«124102_j45406394253467_1_alg».proof.Proof.Gen.Kernel.Points
import proofs.«124102_j45406394253467_1_alg».proof.Proof.Gen.Kernel.Frame
import proofs.«124102_j45406394253467_1_alg».proof.Proof.Gen.KernelIdeal
import proofs.«124102_j45406394253467_1_alg».proof.Proof.Gen.KernelIdeal.Skeleton
import proofs.«124102_j45406394253467_1_alg».proof.Proof.Gen.KernelIdeal.Launch
import proofs.«124102_j45406394253467_1_alg».proof.Proof.Gen.KernelIdeal.Points
import proofs.«124102_j45406394253467_1_alg».proof.Proof.Gen.KernelIdeal.Frame
import proofs.«124102_j45406394253467_1_alg».proof.Proof.Gen.ReferenceIdeal
import proofs.«124102_j45406394253467_1_alg».proof.Proof.Gen.KernelIdeal.Value
import proofs.«124102_j45406394253467_1_alg».proof.Proof.Gen.ReferenceIdeal.Run
import proofs.«124102_j45406394253467_1_alg».proof.Proof.Gen.ReferenceIdeal.Read
import proofs.«124102_j45406394253467_1_alg».proof.Proof.Gen.Pre_finite_inputs
import proofs.«124102_j45406394253467_1_alg».proof.Proof.AffineTanhSpec
import proofs.«124102_j45406394253467_1_alg».proof.Proof.ParameterTable
import proofs.«124102_j45406394253467_1_alg».proof.Proof.KernelResponse
import proofs.«124102_j45406394253467_1_alg».proof.Proof.ReferenceResponse
import Idealize.ShloMosaic.Adequacy
import Idealize.ShloMosaic.Init

noncomputable section

namespace Cert.Proof

open Idealize.ShloMosaic Idealize.ShloMosaic.TcCoe Idealize.SL.Sem

/-- The kernel as printed runs to completion, faults nowhere and leaves its three arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run to its result, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations, so there is nothing to preserve. -/
theorem preserves : Cert.preserves_Kernel_KernelIdeal := trivial

/-- The table the reference looks up and the table the kernel's host code looks up are the same operations of the mask
    and the fault modes, in the same order. -/
theorem same_table (x1 : (⟨Cert.KernelIdeal.S16x512, .i32⟩ : BufTy).Contents (Elt Ideal))
    (x2 : (⟨Cert.KernelIdeal.S13x4, .f32⟩ : BufTy).Contents (Elt Ideal)) :
    Cert.ReferenceIdeal.Read.val_main_v6 (F := Ideal) x1 x2 = Cert.KernelIdeal.Table.table (F := Ideal) x1 x2 := rfl

/-- On the extended reals, from memories that agree on the three arguments, the kernel's result array and the
    reference's both end at the affine-tanh response of the activations under the looked-up table. -/
theorem algebraic : Cert.algebraic_KernelIdeal_ReferenceIdeal := by
  intro m ρ m' ρ' _ hagree
  refine ⟨_, Cert.KernelIdeal.Response.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v27_eq _ _ _).trans
    ((Cert.ReferenceIdeal.Response.reference_is_response _ _ _).trans
      (congrArg (Cert.AffineTanh.response _) (same_table _ _)))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
